-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S1677722 : Shape := ⟨1, ![1677722]⟩
abbrev S2048 : Shape := ⟨1, ![2048]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S1677722 : S_.BroadcastsInDim S1677722 (![] : Fin 0 → Fin S1677722.rank)
  reducesTo_S1677722_S_d0 : S1677722.ReducesTo [0] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8x2048x4096 .f32) (main_arg1 : FVec F S1677722 .f32) (main_arg2 : FVec F S2048 .f32) (main_arg3 : IVec S1677722 32) (main_arg4 : IVec S1677722 32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S1677722 .f32 := Host.absf main_arg1
  let main_cst_0 : FVec F S_ .f32 := constant S_ .f32 0x7F800000#32
  let main_v5 : FVec F S1677722 .f32 := broadcastInDim S1677722 ![] bcast_S_S1677722 main_cst_0
  let main_v6 : IVec S1677722 1 := cmpf .olt main_v4 main_v5
  let main_c_1 : IVec S_ 1 := constantI S_ 1 1#1
  let main_v7 : IVec S_ 1 := (fun x v => Host.reduce IntOp.andi x v reducesTo_S1677722_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8x2048x4096 : Shape := ⟨3, ![8, 2048, 4096]⟩
abbrev S1677722 : Shape := ⟨1, ![1677722]⟩
abbrev S2048 : Shape := ⟨1, ![2048]⟩
abbrev S_ : Shape := ⟨0, ![]⟩
abbrev S4096x4096 : Shape := ⟨2, ![4096, 4096]⟩
abbrev S1677722x1 : Shape := ⟨2, ![1677722, 1]⟩
abbrev S1677722x2 : Shape := ⟨2, ![1677722, 2]⟩
abbrev S1x2048 : Shape := ⟨2, ![1, 2048]⟩
abbrev S8x4096x2048 : Shape := ⟨3, ![8, 4096, 2048]⟩
abbrev S256x4096 : Shape := ⟨2, ![256, 4096]⟩
abbrev S1x1024x4096 : Shape := ⟨3, ![1, 1024, 4096]⟩
abbrev S1x1024 : Shape := ⟨2, ![1, 1024]⟩
abbrev S1x256x1024 : Shape := ⟨3, ![1, 256, 1024]⟩
abbrev S1024x4096 : Shape := ⟨2, ![1024, 4096]⟩
abbrev S256x1024 : Shape := ⟨2, ![256, 1024]⟩
abbrev S1024 : Shape := ⟨1, ![1024]⟩

abbrev nBuf : Space → Nat
  | .hbm => 29
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S1677722, .f32⟩
  | .hbm, ⟨2, _⟩ => ⟨S2048, .f32⟩
  | .hbm, ⟨3, _⟩ => ⟨S1677722, .i32⟩
  | .hbm, ⟨4, _⟩ => ⟨S1677722, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1677722, .i32⟩
  | .hbm, ⟨9, _⟩ => ⟨S1677722, .i1⟩
  | .hbm, ⟨10, _⟩ => ⟨S_, .i32⟩
  | .hbm, ⟨11, _⟩ => ⟨S1677722, .i32⟩
  | .hbm, ⟨12, _⟩ => ⟨S1677722, .i32⟩
  | .hbm, ⟨13, _⟩ => ⟨S1677722, .i32⟩
  | .hbm, ⟨14, _⟩ => ⟨S_, .i32⟩
  | .hbm, ⟨15, _⟩ => ⟨S1677722, .i32⟩
  | .hbm, ⟨16, _⟩ => ⟨S1677722, .i1⟩
  | .hbm, ⟨17, _⟩ => ⟨S_, .i32⟩
  | .hbm, ⟨18, _⟩ => ⟨S1677722, .i32⟩
  | .hbm, ⟨19, _⟩ => ⟨S1677722, .i32⟩
  | .hbm, ⟨20, _⟩ => ⟨S1677722, .i32⟩
  | .hbm, ⟨21, _⟩ => ⟨S1677722x1, .i32⟩
  | .hbm, ⟨22, _⟩ => ⟨S1677722x1, .i32⟩
  | .hbm, ⟨23, _⟩ => ⟨S1677722x2, .i32⟩
  | .hbm, ⟨24, _⟩ => ⟨S4096x4096, .f32⟩
  | .hbm, ⟨25, _⟩ => ⟨S1x2048, .f32⟩
  | .hbm, ⟨26, _⟩ => ⟨S4096x4096, .bf16⟩
  | .hbm, ⟨27, _⟩ => ⟨S8x2048x4096, .bf16⟩
  | .hbm, ⟨28, _⟩ => ⟨S8x4096x2048, .f32⟩
  | .local _ .vmem, ⟨0, _⟩ => ⟨S256x4096, .bf16⟩
  | .local _ .vmem, ⟨1, _⟩ => ⟨S256x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1x1024, .f32⟩
  | .local _ .vmem, ⟨5, _⟩ => ⟨S1x1024, .f32⟩
  | .local _ .vmem, ⟨6, _⟩ => ⟨S1x256x1024, .f32⟩
  | .local _ .vmem, ⟨7, _⟩ => ⟨S1x256x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  bcast_S_S4096x4096 : S_.BroadcastsInDim S4096x4096 (![] : Fin 0 → Fin S4096x4096.rank)
  bcast_S_S1677722 : S_.BroadcastsInDim S1677722 (![] : Fin 0 → Fin S1677722.rank)
  bcast_S1677722_S1677722x1_0 : S1677722.BroadcastsInDim S1677722x1 (![0] : Fin 1 → Fin S1677722x1.rank)
  concatenates_S1677722x1_S1677722x1_S1677722x2_d1 : Shape.Concatenates [S1677722x1, S1677722x1] S1677722x2 1
  shapeCasts_S2048_S1x2048 : S2048.ShapeCasts S1x2048
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  shapeCasts_S1024_S1x1024 : S1024.ShapeCasts S1x1024
  shapeCasts_S1x1024_S1x1024 : S1x1024.ShapeCasts S1x1024
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  scatter_S4096x4096_S1677722x2_S1677722_n_01_01_1_wf : ScatterDims.WF S4096x4096 S1677722x2 S1677722 [] [0, 1] [0, 1] 1
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .bf16 = 32 ∨ (Rect.block (s := S4096x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x4096.size a ≤ S8x2048x4096.size a
  hwx0_1 : ∀ i : grid0.Coords, EltTy.bits .bf16 = 32 ∨ (Rect.block (s := S8x2048x4096) S1x1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x2048.size a
  hwx0_2 : ∀ i : grid0.Coords, EltTy.bits .f32 = 32 ∨ (Rect.block (s := S1x2048) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S8x4096x2048.size a
  hwx0_3 : ∀ i : grid0.Coords, EltTy.bits .f32 = 32 ∨ (Rect.block (s := S8x4096x2048) S1x256x1024.size (cc0_transform_3 i) (hinb0_3 i)).WholeWords (EltTy.packing .f32)

variable [Facts₀]

def scatter_S4096x4096_S1677722x2_S1677722_n_01_01_1 : ScatterDims S4096x4096 S1677722x2 S1677722 where
  updateWindowDims := []
  insertedWindowDims := [0, 1]
  scatterDimsToOperandDims := [0, 1]
  indexVectorDim := 1
  wf := scatter_S4096x4096_S1677722x2_S1677722_n_01_01_1_wf
def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_v16) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S1677722 : Shape := ⟨1, ![1677722]⟩
abbrev S2048 : Shape := ⟨1, ![2048]⟩
abbrev S_ : Shape := ⟨0, ![]⟩
abbrev S4096x4096 : Shape := ⟨2, ![4096, 4096]⟩
abbrev S1677722x1 : Shape := ⟨2, ![1677722, 1]⟩
abbrev S1677722x2 : Shape := ⟨2, ![1677722, 2]⟩
abbrev S8x4096x2048 : Shape := ⟨3, ![8, 4096, 2048]⟩
abbrev S1x1x2048 : Shape := ⟨3, ![1, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S1677722, .f32⟩
  | .hbm, ⟨2, _⟩ => ⟨S2048, .f32⟩
  | .hbm, ⟨3, _⟩ => ⟨S1677722, .i32⟩
  | .hbm, ⟨4, _⟩ => ⟨S1677722, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1677722, .i32⟩
  | .hbm, ⟨9, _⟩ => ⟨S1677722, .i1⟩
  | .hbm, ⟨10, _⟩ => ⟨S_, .i32⟩
  | .hbm, ⟨11, _⟩ => ⟨S1677722, .i32⟩
  | .hbm, ⟨12, _⟩ => ⟨S1677722, .i32⟩
  | .hbm, ⟨13, _⟩ => ⟨S1677722, .i32⟩
  | .hbm, ⟨14, _⟩ => ⟨S_, .i32⟩
  | .hbm, ⟨15, _⟩ => ⟨S1677722, .i32⟩
  | .hbm, ⟨16, _⟩ => ⟨S1677722, .i1⟩
  | .hbm, ⟨17, _⟩ => ⟨S_, .i32⟩
  | .hbm, ⟨18, _⟩ => ⟨S1677722, .i32⟩
  | .hbm, ⟨19, _⟩ => ⟨S1677722, .i32⟩
  | .hbm, ⟨20, _⟩ => ⟨S1677722, .i32⟩
  | .hbm, ⟨21, _⟩ => ⟨S1677722x1, .i32⟩
  | .hbm, ⟨22, _⟩ => ⟨S1677722x1, .i32⟩
  | .hbm, ⟨23, _⟩ => ⟨S1677722x2, .i32⟩
  | .hbm, ⟨24, _⟩ => ⟨S4096x4096, .f32⟩
  | .hbm, ⟨25, _⟩ => ⟨S8x2048x4096, .f32⟩
  | .hbm, ⟨26, _⟩ => ⟨S8x4096x2048, .f32⟩
  | .hbm, ⟨27, _⟩ => ⟨S1x1x2048, .f32⟩
  | .hbm, ⟨28, _⟩ => ⟨S8x4096x2048, .f32⟩
  | .hbm, ⟨29, _⟩ => ⟨S8x4096x2048, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S1677722 : S_.BroadcastsInDim S1677722 (![] : Fin 0 → Fin S1677722.rank)
  bcast_S1677722_S1677722x1_0 : S1677722.BroadcastsInDim S1677722x1 (![0] : Fin 1 → Fin S1677722x1.rank)
  concatenates_S1677722x1_S1677722x1_S1677722x2_d1 : Shape.Concatenates [S1677722x1, S1677722x1] S1677722x2 1
  transposes_S8x2048x4096_S8x4096x2048_0_2_1 : S8x2048x4096.Transposes [0, 2, 1] S8x4096x2048
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  scatter_S4096x4096_S1677722x2_S1677722_n_01_01_1_wf : ScatterDims.WF S4096x4096 S1677722x2 S1677722 [] [0, 1] [0, 1] 1
  dot_S8x2048x4096_S4096x4096_S8x2048x4096_2_1_01_0_n_n_wf : DotDims.WF S8x2048x4096 S4096x4096 S8x2048x4096 [2] [1] [0, 1] [0] [] []

variable [Facts₀]

def scatter_S4096x4096_S1677722x2_S1677722_n_01_01_1 : ScatterDims S4096x4096 S1677722x2 S1677722 where
  updateWindowDims := []
  insertedWindowDims := [0, 1]
  scatterDimsToOperandDims := [0, 1]
  indexVectorDim := 1
  wf := scatter_S4096x4096_S1677722x2_S1677722_n_01_01_1_wf
def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.BodyValue.lean ====
/-
  The kernel body's one stored value, read at an index. A grid point holds a 256 × 4096 block `w` of the
  weight, a 1 × 1024 × 4096 block `x` of the input and a 1 × 1024 block `β` of the bias row, and stores the
  1 × 256 × 1024 block whose entry (·, p, q) is

      (∑ k, w[p, k] · x[0, q, k]) + β[0, q]:

  the matrix unit contracts the LAST axis of both operands into a zero accumulator (so the accumulator
  contributes the extended real 0 and drops out), the bias row is broadcast over the 256 rows, and the shape
  casts only add or drop a leading axis of extent one.
-/
import proofs.«156061_j14903536517962_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.SparseLinear.Body

open Idealize.ShloMosaic Idealize.ShloMosaic.ValueIdx
open Cert.KernelIdeal Cert.KernelIdeal.Gen

/-- The dimension numbers of the body's product: both operands contract their last axis. -/
abbrev D := dot_S256x4096_S1024x4096_S256x1024_1_1_0_0_n_n

theorem lhs_row (j : S256x1024.Idx) (κ : D.contr.Idx) : (D.lhsIdx j κ 0).val = (j 0).val := by
  unfold DotDims.lhsIdx
  rw [dif_neg (show ¬(0 : Fin S256x4096.rank) ∈ D.lhsBatch by decide),
    dif_pos (show (0 : Fin S256x4096.rank) ∈ D.lhsNonContracting by decide)]
  rfl

theorem rhs_row (j : S256x1024.Idx) (κ : D.contr.Idx) : (D.rhsIdx j κ 0).val = (j 1).val := by
  unfold DotDims.rhsIdx
  rw [dif_neg (show ¬(0 : Fin S1024x4096.rank) ∈ D.rhsBatch by decide),
    dif_pos (show (0 : Fin S1024x4096.rank) ∈ D.rhsNonContracting by decide)]
  rfl

/-- The product into the zero accumulator, at (p, q): row `p` of the left block against row `q` of the
    right block. -/
theorem product_at (w : FVec Ideal S256x4096 .bf16) (xr : FVec Ideal S1024x4096 .bf16) (p : Fin 256) (q : Fin 1024) :
    matmul D none w xr (constant (F := Ideal) S256x1024 .f32 0x00000000#32) (ix2 p q)
      = ∑ k : Fin 4096, w (ix2 p k) * xr (ix2 q k) := by
  simp only [matmul]
  rw [Ideal.matmul_constant_zero_apply, ← Equiv.sum_comp (contrEquiv1 D 4096 rfl rfl).symm]
  refine Finset.sum_congr rfl fun k _ => ?_
  have hk := contrEquiv1_symm_val D 4096 rfl rfl k
  have el : D.lhsIdx (ix2 p q) ((contrEquiv1 D 4096 rfl rfl).symm k) = ix2 p k := funext fun a => Fin.ext (by
    match a with
    | ⟨0, _⟩ => exact lhs_row _ _
    | ⟨1, _⟩ => exact (D.lhsIdx_val_of_single rfl _ _).trans hk)
  have er : D.rhsIdx (ix2 p q) ((contrEquiv1 D 4096 rfl rfl).symm k) = ix2 q k := funext fun a => Fin.ext (by
    match a with
    | ⟨0, _⟩ => exact rhs_row _ _
    | ⟨1, _⟩ => exact (D.rhsIdx_val_of_single rfl _ _).trans hk)
  rw [el, er]

/-- The bias block after its three shape casts and the broadcast over the rows, at (p, q): the row's
    entry `q`. -/
theorem bias_at (β : FVec Ideal S1x1024 .f32) (p : Fin 256) (q : Fin 1024) :
    broadcastTo S256x1024
        (shapeCast S1x1024 (shapeCast S1x1024 (shapeCast S1024 β shapeCasts_S1x1024_S1024) shapeCasts_S1024_S1x1024)
          shapeCasts_S1x1024_S1x1024)
        broadcasts_S1x1024_S256x1024 (ix2 p q)
      = β (ix2 (0 : Fin 1) q) := by
  rw [shapeCast_self]
  refine (broadcastTo_1b_ab_apply _ broadcasts_S1x1024_S256x1024 p q).trans ?_
  refine (shapeCast_a_1a_apply _ shapeCasts_S1024_S1x1024 (0 : Fin 1) q).trans ?_
  exact shapeCast_1a_a_apply β shapeCasts_S1x1024_S1024 q

/-- THE STORED BLOCK at (u, p, q). -/
theorem stored_at (w : FVec Ideal S256x4096 .bf16) (x : FVec Ideal S1x1024x4096 .bf16) (β : FVec Ideal S1x1024 .f32)
    (u : Fin 1) (p : Fin 256) (q : Fin 1024) :
    k0_pay1 (F := Ideal) w x β (ix3 u p q)
      = (∑ k : Fin 4096, w (ix2 p k) * x (ix3 (0 : Fin 1) q k)) + β (ix2 (0 : Fin 1) q) := by
  unfold k0_pay1
  refine (shapeCast_ab_1ab_apply _ shapeCasts_S256x1024_S1x256x1024 u p q).trans ?_
  refine (addf_apply _ _ _).trans ?_
  refine congrArg₂ (· + ·) ?_ (bias_at β p q)
  rw [shapeCast_self]
  refine (product_at w _ p q).trans ?_
  exact Finset.sum_congr rfl fun k _ =>
    congrArg (w (ix2 p k) * ·) (shapeCast_1ab_ab_apply x shapeCasts_S1x1024x4096_S1024x4096 q k)

end Cert.SparseLinear.Body

end
-- ==== Proof.LinearSpec.lean ====
/-
  The dense linear map both programs compute once the sparse weight has been scattered into a dense
  4096 × 4096 matrix `W`:

      out[b, r, s] = (∑ k, W[r, k] · x[b, s, k]) + β[s]        (b < 8, r < 4096, s < 2048, k < 4096)

  on the extended reals. The bias is indexed by the LAST axis of the result (the sequence position `s`),
  not by the output feature `r`. The bias is taken as a function of the coordinate `s` alone, so that a
  bias stored as a vector of 2048 entries and one stored as a 1 × 2048 row give the same `out`.
  Nothing here depends on finiteness: the only law used later is that the product of two extended
  reals commutes.
-/
import Idealize.ShloMosaic.PureOps.Ideal
import Idealize.ShloMosaic.Lib.ValueIdx

noncomputable section

namespace Cert.SparseLinear

open Idealize.ShloMosaic Idealize.ShloMosaic.ValueIdx

/-- The entry of the result at batch `b`, output feature `r`, sequence position `s`: row `r` of `W`
    against row `(b, s)` of `x`, plus the bias at `s`. -/
def outAt (W : (⟨2, ![4096, 4096]⟩ : Shape).Idx → EReal) (X : (⟨3, ![8, 2048, 4096]⟩ : Shape).Idx → EReal)
    (β : Fin 2048 → EReal) (b : Fin 8) (r : Fin 4096) (s : Fin 2048) : EReal :=
  (∑ k : Fin 4096, W (ix2 r k) * X (ix3 b s k)) + β s

/-- The whole 8 × 4096 × 2048 result as one function of its index. -/
def out (W : (⟨2, ![4096, 4096]⟩ : Shape).Idx → EReal) (X : (⟨3, ![8, 2048, 4096]⟩ : Shape).Idx → EReal)
    (β : Fin 2048 → EReal) : (⟨3, ![8, 4096, 2048]⟩ : Shape).Idx → EReal :=
  fun i => outAt W X β (i 0) (i 1) (i 2)

theorem out_ix3 (W : (⟨2, ![4096, 4096]⟩ : Shape).Idx → EReal) (X : (⟨3, ![8, 2048, 4096]⟩ : Shape).Idx → EReal)
    (β : Fin 2048 → EReal) (b : Fin 8) (r : Fin 4096) (s : Fin 2048) :
    out W X β (ix3 b r s) = outAt W X β b r s := rfl

/-- The same entry with the factors of each product in the other order (the reference multiplies
    `x` by `W`): the product of extended reals commutes, term by term. -/
theorem outAt_comm (W : (⟨2, ![4096, 4096]⟩ : Shape).Idx → EReal) (X : (⟨3, ![8, 2048, 4096]⟩ : Shape).Idx → EReal)
    (β : Fin 2048 → EReal) (b : Fin 8) (r : Fin 4096) (s : Fin 2048) :
    (∑ k : Fin 4096, X (ix3 b s k) * W (ix2 r k)) + β s = outAt W X β b r s := by
  unfold outAt
  exact congrArg (· + β s) (Finset.sum_congr rfl fun k _ => mul_comm _ _)

end Cert.SparseLinear

end
-- ==== Proof.BlockValue.lean ====
/-
  One stored block, placed in the arrays. If the body's three loaded blocks are the restrictions of whole arrays
  `W` (4096 × 4096), `X` (8 × 2048 × 4096) and the bias row `B` (1 × 2048) to

      rows  im·256 … im·256+255 of W (all columns),
      batch ib, rows is·1024 … is·1024+1023 of X (all columns),
      columns is·1024 … is·1024+1023 of B,

  then the entry (·, p, q) the body stores is the dense linear map's entry at (ib, im·256 + p, is·1024 + q):
  the contraction index k runs over whole rows on both sides, so the block offsets only shift the two free
  coordinates. The embeddings of block indices into array indices are taken as functions with their coordinates
  given by hypotheses, so that the lemma is stated over literal shapes only.
-/
import proofs.«156061_j14903536517962_2_alg».proof.Proof.BodyValue
import proofs.«156061_j14903536517962_2_alg».proof.Proof.LinearSpec

noncomputable section

namespace Cert.SparseLinear.Body

open Idealize.ShloMosaic Idealize.ShloMosaic.ValueIdx
open Cert.KernelIdeal Cert.KernelIdeal.Gen

theorem entry_of_blocks
    (W : S4096x4096.Idx → EReal) (X : S8x2048x4096.Idx → EReal) (B : S1x2048.Idx → EReal)
    (w : FVec Ideal S256x4096 .bf16) (x : FVec Ideal S1x1024x4096 .bf16) (β : FVec Ideal S1x1024 .f32)
    (eW : S256x4096.Idx → S4096x4096.Idx) (eX : S1x1024x4096.Idx → S8x2048x4096.Idx)
    (eB : S1x1024.Idx → S1x2048.Idx)
    (hw : ∀ y, w y = W (eW y)) (hx : ∀ y, x y = X (eX y)) (hβ : ∀ y, β y = B (eB y))
    (ib im is : Nat)
    (hW0 : ∀ y, (eW y 0).val = im * 256 + (y 0).val) (hW1 : ∀ y, (eW y 1).val = (y 1).val)
    (hX0 : ∀ y, (eX y 0).val = ib + (y 0).val) (hX1 : ∀ y, (eX y 1).val = is * 1024 + (y 1).val)
    (hX2 : ∀ y, (eX y 2).val = (y 2).val)
    (hB0 : ∀ y, (eB y 0).val = (y 0).val) (hB1 : ∀ y, (eB y 1).val = is * 1024 + (y 1).val)
    (j : S1x256x1024.Idx) (i : S8x4096x2048.Idx)
    (hO0 : (i 0).val = ib + (j 0).val) (hO1 : (i 1).val = im * 256 + (j 1).val)
    (hO2 : (i 2).val = is * 1024 + (j 2).val) :
    k0_pay1 (F := Ideal) w x β j = Cert.SparseLinear.out W X (fun s => B (ix2 (0 : Fin 1) s)) i := by
  obtain ⟨u, p, q, rfl⟩ : ∃ (u : Fin 1) (p : Fin 256) (q : Fin 1024), j = ix3 u p q := ⟨j 0, j 1, j 2, eq_ix3 j⟩
  have hu : u.val = 0 := by omega
  rw [stored_at]
  unfold Cert.SparseLinear.out Cert.SparseLinear.outAt
  refine congrArg₂ (· + ·) (Finset.sum_congr rfl fun k _ => congrArg₂ (· * ·) ?_ ?_) ?_
  · rw [hw]
    refine congrArg W (funext fun a => Fin.ext ?_)
    match a with
    | ⟨0, _⟩ => exact (hW0 (ix2 p k)).trans hO1.symm
    | ⟨1, _⟩ => exact hW1 (ix2 p k)
  · rw [hx]
    refine congrArg X (funext fun a => Fin.ext ?_)
    match a with
    | ⟨0, _⟩ =>
      have h1 := hX0 (ix3 (0 : Fin 1) q k)
      show (eX (ix3 (0 : Fin 1) q k) 0).val = (i 0).val
      rw [h1, hO0]
      show ib + 0 = ib + u.val
      rw [hu]
    | ⟨1, _⟩ => exact (hX1 (ix3 (0 : Fin 1) q k)).trans hO2.symm
    | ⟨2, _⟩ => exact hX2 (ix3 (0 : Fin 1) q k)
  · rw [hβ]
    refine congrArg B (funext fun a => Fin.ext ?_)
    match a with
    | ⟨0, _⟩ => exact hB0 (ix2 (0 : Fin 1) q)
    | ⟨1, _⟩ => exact (hB1 (ix2 (0 : Fin 1) q)).trans hO2.symm

end Cert.SparseLinear.Body

end
-- ==== Proof.KernelArray.lean ====
/-
  From blocks to the whole result array. The grid has 8 × 2 × 16 points (b, st, mt). At a point the weight
  window holds rows mt·256 … of the 4096 × 4096 matrix, the input window rows st·1024 … of batch b, the bias
  window columns st·1024 … of the bias row, and the output window is block (b, mt, st) of the 8 × 4096 × 2048
  result in blocks of 1 × 256 × 1024. These relations between the four index maps are decided once over the 256
  points. Every point writes its block back, the 8 · 16 · 2 blocks tile the result, and each block is the
  restriction of ONE function of the arrays the region finds (`result`), so the array after the run is that
  function.
-/
import proofs.«156061_j14903536517962_2_alg».proof.Proof.Gen.KernelIdeal.Value
import proofs.«156061_j14903536517962_2_alg».proof.Proof.BlockValue

noncomputable section

namespace Cert.SparseLinear.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The result array as one function of the three arrays the region finds: the dense linear map of the
    scattered weight, the input and the bias row. -/
def result (c : Dev nD) : S8x4096x2048.Idx → EReal :=
  Cert.SparseLinear.out (V m c main_v16) (V m c main_v17) (fun s => V m c main_v15 (ix2 (0 : Fin 1) s))

/-- The four index maps at a point, relative to the output's block index (b, mt, st): the weight follows mt,
    the input follows (b, st), the bias follows st, and whole rows are taken on the contracted axis. -/
theorem block_indices : ∀ t : Fin cfg0.N,
    win0_0.index t (0 : Fin 2) = win0_3.index t (1 : Fin 3) ∧ win0_0.index t (1 : Fin 2) = 0
    ∧ win0_1.index t (0 : Fin 3) = win0_3.index t (0 : Fin 3) ∧ win0_1.index t (1 : Fin 3) = win0_3.index t (2 : Fin 3)
    ∧ win0_1.index t (2 : Fin 3) = 0
    ∧ win0_2.index t (0 : Fin 2) = 0 ∧ win0_2.index t (1 : Fin 2) = win0_3.index t (2 : Fin 3)
    ∧ win0_3.index t (0 : Fin 3) ≤ 7 ∧ win0_3.index t (1 : Fin 3) ≤ 15 ∧ win0_3.index t (2 : Fin 3) ≤ 1 :=
  (by decide +kernel : ∀ t : Fin grid0.N, _)

/-- Point number b·32 + st·16 + mt is the point (b, st, mt), whose output block is (b, mt, st). -/
theorem point_of_block : ∀ (q0 : Fin 8) (q1 : Fin 16) (q2 : Fin 2),
    win0_3.index (⟨(q0.val * 32 + q2.val * 16 + q1.val) % grid0.N, Nat.mod_lt _ (by decide)⟩ : Fin grid0.N)
      = ![q0.val, q1.val, q2.val] := by
  decide +kernel

/-- So every block (b, mt, st) of the result is some point's. -/
theorem block_onto (q0 : Fin 8) (q1 : Fin 16) (q2 : Fin 2) :
    ∃ t : Fin cfg0.N, win0_3.index t = ![q0.val, q1.val, q2.val] :=
  ⟨_, point_of_block q0 q1 q2⟩

/-- The weight window's block at a point is the weight array read through the block's place in it. -/
theorem weight_block (c : Dev nD) (t : Fin cfg0.N) (y : S256x4096.Idx) :
    (iblk m c 0 t : S256x4096.Idx → EReal) y = V m c main_v16 (((cfg0.win 0).blk t).view.emb y) := by
  unfold iblk
  rw [View.read_apply]
  exact cast_eq _ _

/-- The input window's block likewise, -/
theorem input_block (c : Dev nD) (t : Fin cfg0.N) (y : S1x1024x4096.Idx) :
    (iblk m c 1 t : S1x1024x4096.Idx → EReal) y = V m c main_v17 (((cfg0.win 1).blk t).view.emb y) := by
  unfold iblk
  rw [View.read_apply]
  exact cast_eq _ _

/-- and the bias window's. -/
theorem bias_block (c : Dev nD) (t : Fin cfg0.N) (y : S1x1024.Idx) :
    (iblk m c 2 t : S1x1024.Idx → EReal) y = V m c main_v15 (((cfg0.win 2).blk t).view.emb y) := by
  unfold iblk
  rw [View.read_apply]
  exact cast_eq _ _

/-- What a write-back of a staging buffer holding `X` writes is `X` itself (the output's blocks are never cut
    at the array's end), read at the same coordinates. -/
theorem written_apply {α : Type} (X : S1x256x1024.Idx → α) (t : Fin cfg0.N)
    (j : ((cfg0.win 3).xblock (grid0.coords t)).Idx) :
    (cfg0.win 3).cut (grid0.coords t) X j = X ((cfg0.win 3).xinj (grid0.coords t) j) := rfl

/-- WHAT POINT `t` WRITES BACK is block `t` of `result`. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero zero3]
  simp only [View.ld_unit_zero (S := S256x4096) zero2, View.ld_unit_zero (S := S1x1024x4096) zero3,
    View.ld_unit_zero (S := S1x1024) zero2]
  obtain ⟨e0, e1, e2, e3, e4, e5, e6, -, -, -⟩ := block_indices t
  funext j
  rw [View.read_apply]
  refine Eq.trans ?_ (cast_eq _ _).symm
  refine (written_apply _ t j).trans ?_
  unfold result
  exact Cert.SparseLinear.Body.entry_of_blocks (V m c main_v16) (V m c main_v17) (V m c main_v15)
    (iblk m c 0 t) (iblk m c 1 t) (iblk m c 2 t)
    (fun y => ((cfg0.win 0).blk t).view.emb y) (fun y => ((cfg0.win 1).blk t).view.emb y)
    (fun y => ((cfg0.win 2).blk t).view.emb y)
    (weight_block m c t) (input_block m c t) (bias_block m c t)
    (win0_3.index t (0 : Fin 3)) (win0_3.index t (1 : Fin 3)) (win0_3.index t (2 : Fin 3))
    (fun y => by show win0_0.index t (0 : Fin 2) * 256 + 1 * (y 0).val = win0_3.index t (1 : Fin 3) * 256 + (y 0).val; rw [e0]; omega)
    (fun y => by show win0_0.index t (1 : Fin 2) * 4096 + 1 * (y 1).val = (y 1).val; rw [e1]; omega)
    (fun y => by show win0_1.index t (0 : Fin 3) * 1 + 1 * (y 0).val = win0_3.index t (0 : Fin 3) + (y 0).val; rw [e2]; omega)
    (fun y => by show win0_1.index t (1 : Fin 3) * 1024 + 1 * (y 1).val = win0_3.index t (2 : Fin 3) * 1024 + (y 1).val; rw [e3]; omega)
    (fun y => by show win0_1.index t (2 : Fin 3) * 4096 + 1 * (y 2).val = (y 2).val; rw [e4]; omega)
    (fun y => by show win0_2.index t (0 : Fin 2) * 1 + 1 * (y 0).val = (y 0).val; rw [e5]; omega)
    (fun y => by show win0_2.index t (1 : Fin 2) * 1024 + 1 * (y 1).val = win0_3.index t (2 : Fin 3) * 1024 + (y 1).val; rw [e6]; omega)
    ((cfg0.win 3).xinj (grid0.coords t) j) (((cfg0.win 3).blk t).view.emb j)
    (by show win0_3.index t (0 : Fin 3) * 1 + 1 * (j 0).val = win0_3.index t (0 : Fin 3) + (j 0).val; omega)
    (by show win0_3.index t (1 : Fin 3) * 256 + 1 * (j 1).val = win0_3.index t (1 : Fin 3) * 256 + (j 1).val; omega)
    (by show win0_3.index t (2 : Fin 3) * 1024 + 1 * (j 2).val = win0_3.index t (2 : Fin 3) * 1024 + (j 2).val; omega)

/-- An index of the result is in point `t`'s block iff each coordinate is in the block's range on its axis. -/
theorem mem_block (t : Fin cfg0.N) (i : S8x4096x2048.Idx) :
    i ∈ ((cfg0.win 3).blk t).view.set ↔ ∀ a : Fin 3, win0_3.index t a * S1x256x1024.size a ≤ (i a).val ∧ (i a).val < win0_3.index t a * S1x256x1024.size a + S1x256x1024.size a := by
  show i ∈ ((View.whole main_v18).slice (win0_3.rect t)).set ↔ _
  rw [View.set_slice_whole, Rect.mem_set_unit]
  exact Iff.rfl

/-- The blocks tile the result: index (b, r, s) lies in the block (b, r / 256, s / 1024). -/
theorem covered (i : S8x4096x2048.Idx) :
    ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 2048 := (i 2).isLt
  obtain ⟨t, ht⟩ := block_onto ⟨(i 0).val, hi0⟩ ⟨(i 1).val / 256, by omega⟩ ⟨(i 2).val / 1024, by omega⟩
  have q0 : win0_3.index t (0 : Fin 3) = (i 0).val := congrFun ht 0
  have q1 : win0_3.index t (1 : Fin 3) = (i 1).val / 256 := congrFun ht 1
  have q2 : win0_3.index t (2 : Fin 3) = (i 2).val / 1024 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-- THE ARRAY after the run is `result`. -/
theorem final (c : Dev nD) : (dats m 0 c).arrAt 3 cfg0.N = result m c :=
  (dats m 0 c).arrAt_eq_of_cover 3 (result m c) (fun t _ => flushed_eq m c t) covered

/-- The kernel's run with its result array named: `result` of what the region finds, the arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.SparseLinear.Kernel

end
-- ==== Proof.HostArrays.lean ====
/-
  What the kernel's region finds in its three input arrays, as functions of the program's arguments. The host
  lines before the region scatter-add `values` at (row_ids, column_indices) into a zero 4096 × 4096 matrix —
  the SAME operations, on the same arguments, as the reference's, so the matrix is carried as the reference's
  own term and never opened —, round the matrix and the input to bf16, and reshape the bias to a 1 × 2048 row.
  On the extended reals a change of float format is the identity, and the reshape reads entry (0, s) of the
  row at entry s of the vector.
-/
import proofs.«156061_j14903536517962_2_alg».proof.Proof.Gen.KernelIdeal.Frame
import proofs.«156061_j14903536517962_2_alg».proof.Proof.Gen.ReferenceIdeal.Read
import Idealize.ShloMosaic.Lib.StableHlo.Run
import Idealize.ShloMosaic.Lib.ValueIdx
import Idealize.ShloMosaic.Lib.ValueLayout

noncomputable section

namespace Cert.SparseLinear.Host

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ)

/-- The input window's array is the argument `x`: rounding to bf16 is the identity on the extended reals. -/
theorem found_input (c : Dev nD) :
    (V m c main_v17 : S8x2048x4096.Idx → EReal) = m ((c : Thread nD τ).loc main_arg0) := by
  dsimp only [V, hostOps0]
  after_results
  rfl

/-- The bias window's array is the argument `bias` reshaped to one row. -/
theorem found_bias_row (c : Dev nD) :
    (V m c main_v15 : S1x2048.Idx → EReal)
      = shapeCast S1x2048 (m ((c : Thread nD τ).loc main_arg2)) shapeCasts_S2048_S1x2048 := by
  dsimp only [V, hostOps0]
  after_results
  rfl

/-- … so its entry (0, s) is `bias[s]`. -/
theorem found_bias (c : Dev nD) (s : Fin 2048) :
    (V m c main_v15 : S1x2048.Idx → EReal) (ix2 (0 : Fin 1) s) = m ((c : Thread nD τ).loc main_arg2) (ix1 s) := by
  rw [found_bias_row]
  exact shapeCast_a_1a_apply _ shapeCasts_S2048_S1x2048 (0 : Fin 1) s

/-- Rounding an array of extended reals to bf16 leaves it as it is. -/
theorem round_eq_self {s : Shape} (A : FVec Ideal s .f32) (h : FTy.bits .bf16 < FTy.bits .f32) :
    (truncf .bf16 A h : FVec Ideal s .bf16) = A := rfl

/-- A scatter-add is a function of its dimension numbers, its operand, its index pairs and its updates. -/
theorem scatterAdd_congr {S I U : Shape} {d d' : ScatterDims S I U} (hd : d = d')
    {a a' : FVec Ideal S .f32} (ha : a = a') {b b' : IVec I 32} (hb : b = b') {u u' : FVec Ideal U .f32} (hu : u = u') :
    Host.scatterAdd d a b u = Host.scatterAdd d' a' b' u' := by
  subst hd ha hb hu; rfl

/-- The two programs scatter with the same dimension numbers, -/
theorem same_dims : (scatter_S4096x4096_S1677722x2_S1677722_n_01_01_1 : ScatterDims S4096x4096 S1677722x2 S1677722)
    = Cert.ReferenceIdeal.scatter_S4096x4096_S1677722x2_S1677722_n_01_01_1 := rfl

/-- into the same zero matrix. -/
theorem same_zeros :
    (broadcastInDim S4096x4096 ![] bcast_S_S4096x4096 (constant (F := Ideal) S_ .f32 0x00000000#32) : FVec Ideal S4096x4096 .f32)
      = Cert.ReferenceIdeal.Read.val_main_v0 (F := Ideal) := rfl

set_option maxHeartbeats 2000000 in
/-- The weight window's array is the scatter-add of `values` at (row_ids, column_indices), spelt as the
    reference's own stage: the two programs' host lines up to the scatter are the same operations (the index
    pairs are normalized and joined the same way), and the rounding to bf16 after it is the identity on the
    extended reals. The scatter-add itself is never opened: its four arguments are compared one by one. -/
theorem found_weight (c : Dev nD) :
    (V m c main_v16 : S4096x4096.Idx → EReal)
      = Cert.ReferenceIdeal.Read.val_main_v14 (F := Ideal) (m ((c : Thread nD τ).loc main_arg1))
          (m ((c : Thread nD τ).loc main_arg3)) (m ((c : Thread nD τ).loc main_arg4)) := by
  dsimp only [V, hostOps0]
  after_results
  refine (round_eq_self _ _).trans ?_
  unfold Cert.ReferenceIdeal.Read.val_main_v14
  exact scatterAdd_congr same_dims same_zeros rfl rfl

end Cert.SparseLinear.Host

end
-- ==== Proof.ReferenceValue.lean ====
/-
  The reference's result, read one host operation at a time, is the dense linear map of LinearSpec:
  at index (b, r, s) the transposed `dot_general` contracts the last axis of `x[b, s, ·]` with the last
  axis of the scattered weight `W[r, ·]`, and the two broadcasts put `bias[s]` on the last axis of the
  result. The weight is whatever the host scatter-add produced: it is carried as one opaque array.
-/
import proofs.«156061_j14903536517962_2_alg».proof.Proof.Gen.ReferenceIdeal.Read
import proofs.«156061_j14903536517962_2_alg».proof.Proof.LinearSpec

noncomputable section

namespace Cert.SparseLinear.Reference

open Idealize.ShloMosaic Idealize.ShloMosaic.ValueIdx
open Cert.ReferenceIdeal Cert.ReferenceIdeal.Read

/-- Undoing the transpose: entry (b, r, s) of the result comes from entry (b, s, r) of the product, whose
    left factor runs over `x[b, s, k]`. -/
theorem lhs_index (b : Fin 8) (r : Fin 4096) (s : Fin 2048) (k : Fin 4096) :
    lidx_main_v15 (idx_main_v16 (ix3 b r s)) k = ix3 b s k :=
  funext fun a => Fin.ext (by match a with | ⟨0, _⟩ => rfl | ⟨1, _⟩ => rfl | ⟨2, _⟩ => rfl)

/-- … and whose right factor runs over `W[r, k]`. -/
theorem rhs_index (b : Fin 8) (r : Fin 4096) (s : Fin 2048) (k : Fin 4096) :
    ridx_main_v15 (idx_main_v16 (ix3 b r s)) k = ix2 r k :=
  funext fun a => Fin.ext (by match a with | ⟨0, _⟩ => rfl | ⟨1, _⟩ => rfl)

/-- The two broadcasts of the bias read it at the last coordinate. -/
theorem bias_index (b : Fin 8) (r : Fin 4096) (s : Fin 2048) :
    idx_main_v17 (idx_main_v18 (ix3 b r s)) = ix1 s :=
  funext fun a => Fin.ext (by match a with | ⟨0, _⟩ => rfl)

/-- The reference's result is `out` of the scattered weight, `x` and the bias. -/
theorem result_eq (x0 : (⟨S8x2048x4096, .f32⟩ : BufTy).Contents (Elt Ideal)) (x1 : (⟨S1677722, .f32⟩ : BufTy).Contents (Elt Ideal))
    (x2 : (⟨S2048, .f32⟩ : BufTy).Contents (Elt Ideal)) (x3 x4 : (⟨S1677722, .i32⟩ : BufTy).Contents (Elt Ideal)) :
    val_main_v19 (F := Ideal) x0 x1 x2 x3 x4
      = Cert.SparseLinear.out (val_main_v14 (F := Ideal) x1 x3 x4) x0 (fun s => x2 (ix1 s)) := by
  funext i
  obtain ⟨b, r, s, rfl⟩ : ∃ (b : Fin 8) (r : Fin 4096) (s : Fin 2048), i = ix3 b r s := ⟨i 0, i 1, i 2, eq_ix3 i⟩
  rw [val_main_v19_apply, val_main_v16_apply, val_main_v15_apply, val_main_v18_apply, val_main_v17_apply,
    Cert.SparseLinear.out_ix3, ← Cert.SparseLinear.outAt_comm]
  simp only [lhs_index, rhs_index, bias_index]
  rfl

end Cert.SparseLinear.Reference

end
-- ==== Proof.Bridge.lean ====
/-
  The two sides meet. The kernel's result array is the dense linear map of the three arrays its region finds;
  those are the scattered weight (the reference's own stage), the argument `x` and the argument `bias`
  (HostArrays). So the kernel's result is `out W x bias` — the very term the reference's result is
  (ReferenceValue), where the only algebra used was that a product of extended reals commutes.
-/
import proofs.«156061_j14903536517962_2_alg».proof.Proof.KernelArray
import proofs.«156061_j14903536517962_2_alg».proof.Proof.HostArrays
import proofs.«156061_j14903536517962_2_alg».proof.Proof.ReferenceValue

noncomputable section

namespace Cert.SparseLinear

open Idealize.ShloMosaic Idealize.ShloMosaic.TcCoe Idealize.SL.Sem
open Idealize.ShloMosaic.ValueIdx
open Cert.KernelIdeal Cert.KernelIdeal.Gen

variable (m : (ℓ : Loc nD τ sig) → Buf (Elt Ideal) ℓ)

/-- The kernel's result array as a function of the program's arguments. -/
theorem kernel_result_eq (c : Dev nD) :
    Kernel.result m c
      = Cert.SparseLinear.out
          (Cert.ReferenceIdeal.Read.val_main_v14 (F := Ideal) (m ((c : Thread nD τ).loc main_arg1))
            (m ((c : Thread nD τ).loc main_arg3)) (m ((c : Thread nD τ).loc main_arg4)))
          (m ((c : Thread nD τ).loc main_arg0))
          (fun s => m ((c : Thread nD τ).loc main_arg2) (ix1 s)) := by
  unfold Kernel.result
  rw [Host.found_weight m c, Host.found_input m c]
  exact congrArg (Cert.SparseLinear.out _ _) (funext fun s => Host.found_bias m c s)

end Cert.SparseLinear

end
-- ==== Proof.lean ====
/-
  Sparse linear layer, forward: a COO list (values, row_ids, column_indices) is scatter-added into a dense
  4096 × 4096 weight W on the host, and then

      out[b, r, s] = (∑ k, W[r, k] · x[b, s, k]) + bias[s]        (b < 8, r < 4096, s < 2048, k < 4096).

  The kernel tiles the result into 1 × 256 × 1024 blocks over an 8 × 2 × 16 grid; each point multiplies a
  256 × 4096 block of W with a 1024 × 4096 block of x on the matrix unit into a zero accumulator and adds the
  bias row's block, broadcast over the rows. The reference contracts x with W in one `dot_general`, transposes
  the last two axes and adds the broadcast bias. Both build W by the same host operations on the same arguments.

  On the extended reals the two results are the same function of the arguments, index by index: rounding the
  operands to bf16 is the identity, the zero accumulator contributes 0, the tiling only shifts the two free
  coordinates of each block, and the reference's products x·W are the kernel's products W·x because
  multiplication commutes. No finiteness of the inputs is used.

  Modules: LinearSpec (the function `out`), ReferenceValue (the reference is `out`), BodyValue and BlockValue
  (one stored block, at an index and placed in the arrays), KernelArray (blocks to the whole array, the
  kernel's run), HostArrays (what the region finds), Bridge (the kernel is `out`). The frames of both kernel
  programs are the generated frame theorems; the reference's frame is its generated run with the result dropped.
  The idealization rewrote nothing, so `preserves` is trivial.
-/
import proofs.«156061_j14903536517962_2_alg».proof.Defs
import proofs.«156061_j14903536517962_2_alg».proof.Proof.Gen.Kernel
import proofs.«156061_j14903536517962_2_alg».proof.Proof.Gen.Kernel.Skeleton
import proofs.«156061_j14903536517962_2_alg».proof.Proof.Gen.Kernel.Launch
import proofs.«156061_j14903536517962_2_alg».proof.Proof.Gen.Kernel.Points
import proofs.«156061_j14903536517962_2_alg».proof.Proof.Gen.Kernel.Frame
import proofs.«156061_j14903536517962_2_alg».proof.Proof.Gen.KernelIdeal
import proofs.«156061_j14903536517962_2_alg».proof.Proof.Gen.KernelIdeal.Skeleton
import proofs.«156061_j14903536517962_2_alg».proof.Proof.Gen.KernelIdeal.Launch
import proofs.«156061_j14903536517962_2_alg».proof.Proof.Gen.KernelIdeal.Points
import proofs.«156061_j14903536517962_2_alg».proof.Proof.Gen.KernelIdeal.Frame
import proofs.«156061_j14903536517962_2_alg».proof.Proof.Gen.ReferenceIdeal
import proofs.«156061_j14903536517962_2_alg».proof.Proof.Gen.Pre_finite_inputs
import proofs.«156061_j14903536517962_2_alg».proof.Proof.Gen.KernelIdeal.Value
import proofs.«156061_j14903536517962_2_alg».proof.Proof.Gen.ReferenceIdeal.Run
import proofs.«156061_j14903536517962_2_alg».proof.Proof.Gen.ReferenceIdeal.Read
import proofs.«156061_j14903536517962_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same array: the kernel's is `out` of the scattered weight, x and the bias
    (its run, then Bridge), the reference's run ends at its last stage, which is the same `out` once the
    arguments are identified. -/
theorem algebraic : Cert.algebraic_KernelIdeal_ReferenceIdeal := by
  intro m ρ m' ρ' _ hagree
  refine ⟨fun c => Cert.SparseLinear.Kernel.result m c, Cert.SparseLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.SparseLinear.Reference.result_eq,
    (hagree c).1, (hagree c).2.1, (hagree c).2.2.1, (hagree c).2.2.2.1, (hagree c).2.2.2.2]
  exact (Cert.SparseLinear.kernel_result_eq m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
